-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S4x1024x2048 : Shape := ⟨3, ![4, 1024, 2048]⟩
abbrev S1x2048x1024 : Shape := ⟨3, ![1, 2048, 1024]⟩
abbrev S1x1024x256 : Shape := ⟨3, ![1, 1024, 256]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x1024x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x256, .f32⟩
  | .local _ .vmem, ⟨6, _⟩ => ⟨S1x1024x256, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S1024x1024_S1024x1024_1_0 : S1024x1024.Transposes [1, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S256x1024 : 0 < S256x1024.numel
  reduces_S256x2048_S256 : S256x2048.Reduces [1] S256
  shapeCasts_S256_S256x1 : S256.ShapeCasts S256x1
  broadcasts_S256x1_S256x2048 : S256x1.Broadcasts S256x2048
  transposes_S256x1024_p1_0_S1024x256 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S4x1024x2048.size a
  hwx0_4 : ∀ i : grid0.Coords, EltTy.bits .f32 = 32 ∨ (Rect.block (s := S4x1024x2048) S1x1024x256.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1024x2048 : Shape := ⟨3, ![4, 1024, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | .hbm, ⟨27, _⟩ => ⟨S4x1024x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1024_S4x1024x2048_0_2_1 : S4x2048x1024.Transposes [0, 2, 1] S4x1024x2048
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BodyStores.lean ====
/-
  What one run of the body leaves in the buffers it writes, as values of what it found in the buffers it reads — at
  any float type.

  At the first query tile of a batch (case A) the body stores three carried buffers whole — the batch's block of
  `x`, and its products with the second and third weight blocks — and then the output block, computed from 256
  rows of the first of these (the rows of this query tile), the first weight block and the other two. At every
  other tile (case B) it stores only the output block, computed the same way from what the carried buffers held.
  The 256 rows are read through the rectangle of 256 × 1024 entries at the tile's row offset.
-/
import proofs.«178958_j61272003445142_2_alg».proof.Proof.Gen.KernelIdeal.Frame
import Idealize.ShloMosaic.Lib.Pipeline.Value
import Idealize.ShloMosaic.Lib.Tactic

noncomputable section

namespace Cert.KernelIdeal.Stores

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of a [2048, 1024] buffer's contents that the query tile at grid point `i` reads. -/
abbrev tileRows (i : grid0.Coords) (X : Vec F S2048x1024 .bf16) : Vec F S256x1024 .bf16 :=
  View.ld X (Rect.unit (s := S2048x1024) (k0_off1 i) S256x1024.size (k0_off1_inb i))

/-- Case A leaves the product of the input block with the second weight block in the first carried buffer. -/
theorem keys_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .f32) (x1 : Vec F S1024x1024 .bf16) (x2 : Vec F S1024x1024 .bf16) (x3 : Vec F S1024x1024 .bf16) :
    sout0_A_0 c i arg2 harg2 arg3 harg3 arg4 harg4 arg5 harg5 arg6 harg6 arg7 harg7 arg8 harg8 arg9 harg9 hc0 x0 x1 x2 x3 = k0_pay3 x0 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, harg4.read_unread, View.ld_unit_zero (S := S1x2048x1024) hz3,
    View.ld_unit_zero (S := S1024x1024) hz2]

/-- Case A leaves the product of the input block with the third weight block in the second carried buffer. -/
theorem values_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .f32) (x1 : Vec F S1024x1024 .bf16) (x2 : Vec F S1024x1024 .bf16) (x3 : Vec F S1024x1024 .bf16) :
    sout0_A_1 c i arg2 harg2 arg3 harg3 arg4 harg4 arg5 harg5 arg6 harg6 arg7 harg7 arg8 harg8 arg9 harg9 hc0 x0 x1 x2 x3 = k0_pay4 x0 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, harg5.read_unread, View.ld_unit_zero (S := S1x2048x1024) hz3,
    View.ld_unit_zero (S := S1024x1024) hz2]

/-- Case A leaves the input block itself in the third carried buffer. -/
theorem rows_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .f32) (x1 : Vec F S1024x1024 .bf16) (x2 : Vec F S1024x1024 .bf16) (x3 : Vec F S1024x1024 .bf16) :
    sout0_A_2 c i arg2 harg2 arg3 harg3 arg4 harg4 arg5 harg5 arg6 harg6 arg7 harg7 arg8 harg8 arg9 harg9 hc0 x0 x1 x2 x3 = k0_pay2 x0 := by
  unfold sout0_A_2
  rw [View.read_writes_eq_canon _ _ _ (scover0_A_2 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, View.ld_unit_zero (S := S1x2048x1024) hz3]

/-- Case A's output block: from the tile's rows of the input block it has just stored, and the keys and values it
    has just stored. -/
theorem out_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .f32) (x1 : Vec F S1024x1024 .bf16) (x2 : Vec F S1024x1024 .bf16) (x3 : Vec F S1024x1024 .bf16) :
    out0_A_4 c i arg2 harg2 arg3 harg3 arg4 harg4 arg5 harg5 arg6 harg6 arg7 harg7 arg8 harg8 arg9 harg9 hc0 x0 x1 x2 x3
      = k0_pay5 (tileRows i (k0_pay2 x0)) x1 (k0_pay3 x0 x2) (k0_pay4 x0 x3) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz3]
  simp only [View.readAt_eq_ld, View.read_writes_junk_eq_canon, View.canon_unit_zero (S := S2048x1024) hz2,
    View.readCov_unit_zero (S := S2048x1024) _ hz2,
    harg2.read_unread, harg3.read_unread, harg4.read_unread, harg5.read_unread,
    View.ld_unit_zero (S := S1x2048x1024) hz3, View.ld_unit_zero (S := S1024x1024) hz2]

/-- Case B's output block: from the tile's rows of what the third carried buffer held, and the keys and values the
    other two held. -/
theorem out_B (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : ¬cond0_0 i) (x0 : Vec F S1x2048x1024 .f32) (x1 : Vec F S1024x1024 .bf16) (x2 : Vec F S1024x1024 .bf16) (x3 : Vec F S1024x1024 .bf16) (xs0 : Vec F S2048x1024 .bf16) (xs1 : Vec F S2048x1024 .bf16) (xs2 : Vec F S2048x1024 .bf16) :
    out0_B_4 c i arg2 harg2 arg3 harg3 arg4 harg4 arg5 harg5 arg6 harg6 arg7 harg7 arg8 harg8 arg9 harg9 hc0 x0 x1 x2 x3 xs0 xs1 xs2 = k0_pay5 (tileRows i xs2) x1 xs0 xs1 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1 xs2)]
  unfold kernelRun0_B
  dsimp only
  rw [View.canon_unit_zero hz3]
  simp only [View.readAt_eq_ld, harg3.read_unread, harg7.read_unread, harg8.read_unread, harg9.read_unread,
    View.ld_unit_zero (S := S1024x1024) hz2, View.ld_unit_zero (S := S2048x1024) hz2]

end Cert.KernelIdeal.Stores

end
-- ==== Proof.CarriedBuffers.lean ====
/-
  What the three buffers the kernel carries from one grid point to the next hold, and what each point stores into
  the output block.

  The grid is 4 batches × 8 query tiles, the tile index moving fastest: point `n` is tile `n % 8` of batch `n / 8`.
  The first tile of a batch fills the carried buffers from the batch's block of `x` (its product with the second
  weight block, its product with the third, and the block itself); the other seven tiles leave them as they are.
  So after ANY point `n` they hold what the batch's first point, `8 · (n / 8)`, computed — by induction on the point.
  Every point then stores the same function of its own tile's rows, the first weight block, and those keys and
  values.
-/
import proofs.«178958_j61272003445142_2_alg».proof.Proof.BodyStores

noncomputable section

namespace Cert.KernelIdeal.Carried

open Cert.KernelIdeal Cert.KernelIdeal.Gen Cert.KernelIdeal.Stores Idealize.ShloMosaic Idealize.ShloMosaic.TcCoe Idealize.SL.Sem

variable {F : FTy → Type} [FloatOps F]
variable (m : (ℓ : Loc nD τ sig) → Buf (Elt F) ℓ)

/-- The keys a batch's first point `t` computes: its block of `x` times the second weight block. -/
def keysOf (c : Dev nD) (t : Fin cfg0.N) : Vec F S2048x1024 .bf16 := k0_pay3 (iblk m c 0 t) (iblk m c 2 t)

/-- The values it computes: its block of `x` times the third weight block. -/
def valuesOf (c : Dev nD) (t : Fin cfg0.N) : Vec F S2048x1024 .bf16 := k0_pay4 (iblk m c 0 t) (iblk m c 3 t)

/-- The rows it keeps: its block of `x`. -/
def rowsOf (c : Dev nD) (t : Fin cfg0.N) : Vec F S2048x1024 .bf16 := k0_pay2 (iblk m c 0 t)

/-- The first point of the batch that point `n` belongs to. -/
def batchStart (n : ℕ) (h : n < cfg0.N) : Fin cfg0.N := ⟨8 * (n / 8), lt_of_le_of_lt (Nat.mul_div_le n 8) h⟩

/-! ## At a batch's first point -/

theorem keys_at (c : Dev nD) (t : Fin cfg0.N) (h0 : t.val % 8 = 0) : (outsAt0 m c t.val t.isLt).2.1 = keysOf m c t := by
  have h2 : (outsAt0 m c t.val t.isLt).2.1
      = sout0_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
    rw [outsAt0_A m c t h0]
  exact h2.trans (keys_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t))

theorem values_at (c : Dev nD) (t : Fin cfg0.N) (h0 : t.val % 8 = 0) : (outsAt0 m c t.val t.isLt).2.2.1 = valuesOf m c t := by
  have h2 : (outsAt0 m c t.val t.isLt).2.2.1
      = sout0_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
    rw [outsAt0_A m c t h0]
  exact h2.trans (values_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t))

theorem rows_at (c : Dev nD) (t : Fin cfg0.N) (h0 : t.val % 8 = 0) : (outsAt0 m c t.val t.isLt).2.2.2 = rowsOf m c t := by
  have h2 : (outsAt0 m c t.val t.isLt).2.2.2
      = sout0_A_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
    rw [outsAt0_A m c t h0]
  exact h2.trans (rows_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t))

/-! ## After any point -/

/-- After point `n` the carried buffers hold the keys, the values and the rows of `n`'s batch. -/
theorem carried (c : Dev nD) : ∀ (n : ℕ) (h : n < cfg0.N),
    (outsAt0 m c n h).2.1 = keysOf m c (batchStart n h)
    ∧ (outsAt0 m c n h).2.2.1 = valuesOf m c (batchStart n h)
    ∧ (outsAt0 m c n h).2.2.2 = rowsOf m c (batchStart n h)
  | 0, h => by
    have hb : batchStart 0 h = ⟨0, h⟩ := Fin.ext (by show 8 * (0 / 8) = 0; omega)
    rw [hb]
    exact ⟨keys_at m c ⟨0, h⟩ rfl, values_at m c ⟨0, h⟩ rfl, rows_at m c ⟨0, h⟩ rfl⟩
  | n + 1, h => by
    by_cases h0 : (n + 1) % 8 = 0
    · have hb : batchStart (n + 1) h = ⟨n + 1, h⟩ := Fin.ext (by show 8 * ((n + 1) / 8) = n + 1; omega)
      rw [hb]
      exact ⟨keys_at m c ⟨n + 1, h⟩ h0, values_at m c ⟨n + 1, h⟩ h0, rows_at m c ⟨n + 1, h⟩ h0⟩
    · have ih := carried c n (Nat.lt_of_succ_lt h)
      have hb : batchStart (n + 1) h = batchStart n (Nat.lt_of_succ_lt h) :=
        Fin.ext (by show 8 * ((n + 1) / 8) = 8 * (n / 8); omega)
      rw [hb]
      have e := outsAt0_B m c ⟨n + 1, h⟩ h0
      exact ⟨(congrArg (fun p => p.2.1) e).trans ih.1, (congrArg (fun p => p.2.2.1) e).trans ih.2.1,
        (congrArg (fun p => p.2.2.2) e).trans ih.2.2⟩

/-! ## What each point stores into the output block -/

/-- Point `t` stores the tile function of its tile's rows of the batch's block, the first weight block, and the
    batch's keys and values. -/
theorem out_at (c : Dev nD) (t : Fin cfg0.N) :
    (outsAt0 m c t.val t.isLt).1
      = k0_pay5 (tileRows (grid0.coords t) (rowsOf m c (batchStart t.val t.isLt))) (iblk m c 1 t)
          (keysOf m c (batchStart t.val t.isLt)) (valuesOf m c (batchStart t.val t.isLt)) := by
  by_cases h0 : t.val % 8 = 0
  · have hb : batchStart t.val t.isLt = t := Fin.ext (by show 8 * (t.val / 8) = t.val; omega)
    have h2 : (outsAt0 m c t.val t.isLt).1
        = out0_A_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
      rw [outsAt0_A m c t h0]
    have e : out0_A_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
        = k0_pay5 (tileRows (grid0.coords t) (rowsOf m c t)) (iblk m c 1 t) (keysOf m c t) (valuesOf m c t) :=
      out_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)
    rw [hb]
    exact h2.trans e
  · obtain ⟨k1, k2, k3⟩ := carried m c (t.val - 1) (Nat.lt_of_le_of_lt (Nat.sub_le _ _) t.isLt)
    have hb : batchStart (t.val - 1) (Nat.lt_of_le_of_lt (Nat.sub_le _ _) t.isLt) = batchStart t.val t.isLt :=
      Fin.ext (by show 8 * ((t.val - 1) / 8) = 8 * (t.val / 8); omega)
    have h2 : (outsAt0 m c t.val t.isLt).1
        = out0_B_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t)
            (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
      rw [outsAt0_B m c t h0]
    refine h2.trans ((out_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_)
    rw [k1, k2, k3, hb]

end Cert.KernelIdeal.Carried

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.ProjectionsAtIndex.lean ====
/-
  What the body stores into the three carried buffers at the first query tile of a batch, read at an entry, on the
  extended reals: the batch's block of `x` itself (a change of float format is the identity), and its products with
  the two weight blocks, each entry a sum over the 1024 input features.
-/
import proofs.«178958_j61272003445142_2_alg».proof.Proof.Gen.KernelIdeal.Skeleton
import proofs.«178958_j61272003445142_2_alg».proof.Proof.LibHostRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The printed dimension numbers of the [2048,1024] × [1024,1024] product are the plain ones. -/
theorem dotProj_eq : dot_S2048x1024_S1024x1024_S2048x1024_1_0_0_1_n_n
    = Cert.LibHR.plainDotDims 2048 1024 1024 dot_S2048x1024_S1024x1024_S2048x1024_1_0_0_1_n_n_wf := rfl

/-- The batch's block of `x` with its leading unit axis dropped, entry `(s, d)`. -/
theorem xBlock_apply (v31 : Vec Ideal S1x2048x1024 .f32) (s : Fin 2048) (d : Fin 1024) :
    k0_pay1 (F := Ideal) v31 (ix2 s d) = v31 (ix3 (0 : Fin 1) s d) := by
  unfold k0_pay1
  exact shapeCast_1ab_ab_apply v31 shapeCasts_S1x2048x1024_S2048x1024 s d

/-- What is stored into the third carried buffer: the same block. -/
theorem xStored_apply (v31 : Vec Ideal S1x2048x1024 .f32) (s : Fin 2048) (d : Fin 1024) :
    k0_pay2 (F := Ideal) v31 (ix2 s d) = v31 (ix3 (0 : Fin 1) s d) := by
  unfold k0_pay2
  rw [shapeCast_self]
  exact xBlock_apply v31 s d

/-- The block's product with a weight block `w` (1024 × 1024, features along the rows), entry `(s, e)`. -/
theorem proj_apply (v31 : Vec Ideal S1x2048x1024 .f32) (w : FVec Ideal S1024x1024 .bf16) (s : Fin 2048) (e : Fin 1024) :
    FloatOps.matmul (F := Ideal) dot_S2048x1024_S1024x1024_S2048x1024_1_0_0_1_n_n none (k0_pay1 (F := Ideal) v31) w
        (constant (F := Ideal) S2048x1024 .f32 0x00000000#32) (ix2 s e)
      = ∑ d : Fin 1024, v31 (ix3 (0 : Fin 1) s d) * w (ix2 d e) := by
  rw [dotProj_eq]
  refine (Cert.LibHR.plainMatmul_zero_apply (φ₁ := .bf16) (φ₂ := .bf16) 2048 1024 1024 _ (k0_pay1 (F := Ideal) v31) w s e).trans ?_
  exact Finset.sum_congr rfl fun d _ => by rw [xBlock_apply]

/-- What is stored into the first carried buffer (the keys): the block times the second weight block. -/
theorem keysStored_apply (v31 : Vec Ideal S1x2048x1024 .f32) (v37 : Vec Ideal S1024x1024 .bf16) (s : Fin 2048) (e : Fin 1024) :
    k0_pay3 (F := Ideal) v31 v37 (ix2 s e) = ∑ d : Fin 1024, v31 (ix3 (0 : Fin 1) s d) * v37 (ix2 d e) := by
  unfold k0_pay3
  rw [shapeCast_self, shapeCast_self]
  exact proj_apply v31 v37 s e

/-- What is stored into the second carried buffer (the values): the block times the third weight block. -/
theorem valuesStored_apply (v31 : Vec Ideal S1x2048x1024 .f32) (v44 : Vec Ideal S1024x1024 .bf16) (s : Fin 2048) (e : Fin 1024) :
    k0_pay4 (F := Ideal) v31 v44 (ix2 s e) = ∑ d : Fin 1024, v31 (ix3 (0 : Fin 1) s d) * v44 (ix2 d e) := by
  unfold k0_pay4
  rw [shapeCast_self, shapeCast_self]
  exact proj_apply v31 v44 s e

end Cert.KernelIdeal.Payload

end
-- ==== Proof.AttentionSpec.lean ====
/-
  Scaled dot-product attention of ONE query row, as a function on the extended reals.

  For a query row `q` (1024 entries), keys `K` and values `V` (2048 rows of 1024 entries each):
    score k   = (∑ e, q e · K k e) · 2⁻⁵            (2⁻⁵ = 1 / √1024)
    rowMax    = the maximum of the scores over k (folded from -∞)
    weight k  = exp (score k - rowMax)
    prob k    = weight k / ∑ k', weight k'
    attend e  = ∑ k, prob k · V k e
  and a linear layer's row: `lin x W e = ∑ d, x d · W e d` (the weight matrix applied on the right, transposed).

  Also here: the three small facts that identify two spellings of this function — dividing by √1024 is multiplying
  by 2⁻⁵ on every extended real; the maximum with -∞ is the identity; adding the sum to a zero initial value is the
  sum.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The scale `2⁻⁵`, as the f32 word that denotes it. -/
def scale : EReal := Ideal.ofBits .f32 0x3D000000#32

/-- `-∞`, as the f32 word that denotes it. -/
def negInf : EReal := Ideal.ofBits .f32 0xFF800000#32

/-- A row of a linear layer: `∑ d, x d · W e d`. -/
def lin (x : Fin 1024 → EReal) (W : Fin 1024 → Fin 1024 → EReal) (e : Fin 1024) : EReal :=
  ∑ d : Fin 1024, x d * W e d

/-- The scaled score of the query row against key `k`. -/
def score (q : Fin 1024 → EReal) (K : Fin 2048 → Fin 1024 → EReal) (k : Fin 2048) : EReal :=
  (∑ e : Fin 1024, q e * K k e) * scale

/-- The maximum of a row of scores, folded from `-∞`. -/
def rowMax (s : Fin 2048 → EReal) : EReal :=
  (Finset.univ : Finset (Fin 2048)).fold max negInf s

/-- The unnormalized softmax weight of key `k`. -/
def weight (s : Fin 2048 → EReal) (k : Fin 2048) : EReal := Ideal.exp (s k - rowMax s)

/-- The softmax probability of key `k`. -/
def prob (s : Fin 2048 → EReal) (k : Fin 2048) : EReal :=
  Ideal.div (weight s k) (∑ k' : Fin 2048, weight s k')

/-- The attention output of the query row, entry `e`. -/
def attend (q : Fin 1024 → EReal) (K V : Fin 2048 → Fin 1024 → EReal) (e : Fin 1024) : EReal :=
  ∑ k : Fin 2048, prob (score q K) k * V k e

/-- Row `s` of batch `b` of the input `x` (4 batches of 2048 rows of 1024 features). -/
def xRow (x : (⟨3, ![4, 2048, 1024]⟩ : Shape).Idx → EReal) (b : Fin 4) (s : Fin 2048) : Fin 1024 → EReal :=
  fun d => x (ix3 b s d)

/-- A 1024 × 1024 weight matrix by its coordinates (output feature, input feature). -/
def wMat (w : (⟨2, ![1024, 1024]⟩ : Shape).Idx → EReal) : Fin 1024 → Fin 1024 → EReal :=
  fun e d => w (ix2 e d)

/-- SELF-ATTENTION OF THE WHOLE INPUT, transposed: entry `(b, e, s)` is feature `e` of the attention output of row
    `s` of batch `b`, whose query is that row through `wq` and whose keys and values are the batch's rows through
    `wk` and `wv`. -/
def attention (x : (⟨3, ![4, 2048, 1024]⟩ : Shape).Idx → EReal) (wq wk wv : (⟨2, ![1024, 1024]⟩ : Shape).Idx → EReal)
    (b : Fin 4) (e : Fin 1024) (s : Fin 2048) : EReal :=
  attend (lin (xRow x b s) (wMat wq)) (fun k => lin (xRow x b k) (wMat wk)) (fun k => lin (xRow x b k) (wMat wv)) e

/-! ## The words -/

/-- The word `0x44800000` denotes the real `1024`. -/
theorem ofBits_1024 : Ideal.ofBits .f32 0x44800000#32 = ((1024 : ℝ) : EReal) := by
  simp [Ideal.ofBits, Ideal.ieee, -EReal.coe_mul]; norm_num

/-- The word `0x3D000000` denotes the real `1 / 32`. -/
theorem scale_eq : scale = ((1 / 32 : ℝ) : EReal) := by
  unfold scale
  simp [Ideal.ofBits, Ideal.ieee, -EReal.coe_mul]; norm_num

/-- The word `0xFF800000` denotes `-∞`. -/
theorem negInf_eq : negInf = ⊥ := by
  unfold negInf
  simp [Ideal.ofBits, Ideal.ieee]

/-- The word `0x00000000` denotes `0`. -/
theorem ofBits_zero : Ideal.ofBits .f32 0x00000000#32 = 0 := Ideal.ofBits_zero_f32

/-! ## The three facts -/

/-- `√1024 = 32`. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- Dividing by `√1024` is multiplying by `2⁻⁵`, on every extended real. -/
theorem div_sqrt_1024 (a : EReal) :
    Ideal.div a (Ideal.sqrt (Ideal.ofBits .f32 0x44800000#32)) = a * scale := by
  rw [ofBits_1024, sqrt_1024, scale_eq, Ideal.div_coe (by norm_num : (32 : ℝ) ≠ 0)]

/-- The maximum with `-∞` is the identity. -/
theorem max_negInf (a : EReal) : max negInf a = a := by
  rw [negInf_eq]; exact max_eq_right bot_le

/-- A sum added to the zero word is the sum. -/
theorem zero_word_add (a : EReal) : Ideal.ofBits .f32 0x00000000#32 + a = a := by
  rw [ofBits_zero, zero_add]

end Cert.Attn

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.QueryTileAtIndex.lean ====
/-
  What the body stores into the output block at one grid point, read at an entry, on the extended reals.

  From the 256 query rows `v6` of the batch's input, the first weight block `v7` (features along the rows), the
  keys `v11` and the values `v25` (2048 rows of 1024 entries each), the stored block's entry `(0, e, r)` is the
  attention output (AttentionSpec's `attend`) of query row `r` — the row `∑ d, v6 (r, d) · v7 (d, ·)` — against
  those keys and values, at feature `e`: the block is stored transposed.

  The body is cut into its five stages (queries, scaled scores, softmax weights, probabilities, the output block);
  each is read at an index, then they are composed.
-/
import proofs.«178958_j61272003445142_2_alg».proof.Proof.Gen.KernelIdeal.Skeleton
import proofs.«178958_j61272003445142_2_alg».proof.Proof.AttentionSpec
import proofs.«178958_j61272003445142_2_alg».proof.Proof.LibHostRead
import proofs.«178958_j61272003445142_2_alg».proof.Proof.LibContractLast
import proofs.«178958_j61272003445142_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Attn

/-! ## The printed dimension numbers -/

theorem dotQ_eq : dot_S256x1024_S1024x1024_S256x1024_1_0_0_1_n_n
    = Cert.LibHR.plainDotDims 256 1024 1024 dot_S256x1024_S1024x1024_S256x1024_1_0_0_1_n_n_wf := rfl
theorem dotS_eq : dot_S256x1024_S2048x1024_S256x2048_1_1_0_0_n_n
    = Cert.LibContractLast.lastDims 256 1024 2048 dot_S256x1024_S2048x1024_S256x2048_1_1_0_0_n_n_wf := rfl
theorem dotO_eq : dot_S256x2048_S2048x1024_S256x1024_1_0_0_1_n_n
    = Cert.LibHR.plainDotDims 256 2048 1024 dot_S256x2048_S2048x1024_S256x1024_1_0_0_1_n_n_wf := rfl

/-! ## The five stages -/

/-- The tile's queries: the query rows times the first weight block. -/
def tileQ (v6 : FVec Ideal S256x1024 .bf16) (v7 : FVec Ideal S1024x1024 .bf16) : FVec Ideal S256x1024 .f32 :=
  matmul dot_S256x1024_S1024x1024_S256x1024_1_0_0_1_n_n none v6 (shapeCast S1024x1024 v7 shapeCasts_S1024x1024_S1024x1024)
    (constant S256x1024 .f32 0x00000000#32)

/-- The scaled scores of the tile's queries against every key. -/
def tileScores (q : FVec Ideal S256x1024 .f32) (v11 : FVec Ideal S2048x1024 .bf16) : FVec Ideal S256x2048 .f32 :=
  mulf (matmul dot_S256x1024_S2048x1024_S256x2048_1_1_0_0_n_n none (truncf .bf16 q bitsLt_bf16_f32) v11
      (constant S256x2048 .f32 0x00000000#32))
    (broadcast S256x2048 (Scalar.ofBits .f32 0x3D000000#32))

/-- The softmax weights: the exponential of each score less its row's maximum. -/
def tileWeights (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- The probabilities: each weight over its row's sum. -/
def tileProbs (w : FVec Ideal S256x2048 .f32) : FVec Ideal S256x2048 .f32 :=
  divf w (broadcastTo S256x2048 (shapeCast S256x1
    (multiReduction .add [1] S256 w 0x00000000#32 reduces_S256x2048_S256 (.inl rfl) rfl) shapeCasts_S256_S256x1)
    broadcasts_S256x1_S256x2048)

/-- The output block: the probabilities times the values, transposed, under a leading unit axis. -/
def tileOut (p : FVec Ideal S256x2048 .f32) (v25 : FVec Ideal S2048x1024 .bf16) : FVec Ideal S1x1024x256 .f32 :=
  shapeCast S1x1024x256 (transpose S1024x256 [1, 0]
    (matmul dot_S256x2048_S2048x1024_S256x1024_1_0_0_1_n_n none (truncf .bf16 p bitsLt_bf16_f32) v25
      (constant S256x1024 .f32 0x00000000#32)) transposes_S256x1024_p1_0_S1024x256) shapeCasts_S1024x256_S1x1024x256

/-- The stored value is the composition of the five stages. -/
theorem stored_eq (v6 : Vec Ideal S256x1024 .bf16) (v7 : Vec Ideal S1024x1024 .bf16) (v11 v25 : Vec Ideal S2048x1024 .bf16) :
    k0_pay5 (F := Ideal) v6 v7 v11 v25 = tileOut (tileProbs (tileWeights (tileScores (tileQ v6 v7) v11))) v25 := rfl

/-! ## Each stage at an index -/

theorem tileQ_apply (v6 : FVec Ideal S256x1024 .bf16) (v7 : FVec Ideal S1024x1024 .bf16) (r : Fin 256) (e : Fin 1024) :
    tileQ v6 v7 (ix2 r e) = ∑ d : Fin 1024, v6 (ix2 r d) * v7 (ix2 d e) := by
  unfold tileQ
  rw [shapeCast_self, dotQ_eq]
  exact Cert.LibHR.plainMatmul_zero_apply (φ₁ := .bf16) (φ₂ := .bf16) 256 1024 1024 _ v6 v7 r e

theorem tileScores_apply (q : FVec Ideal S256x1024 .f32) (v11 : FVec Ideal S2048x1024 .bf16) (r : Fin 256) (k : Fin 2048) :
    tileScores q v11 (ix2 r k) = score (fun e => q (ix2 r e)) (fun k' e => v11 (ix2 k' e)) k := by
  unfold tileScores
  rw [dotS_eq]
  show FloatOps.matmul _ none (truncf .bf16 q bitsLt_bf16_f32) v11 (constant (F := Ideal) _ .f32 0x00000000#32) (ix2 r k) * scale = _
  refine congrArg (· * scale) ?_
  exact Cert.LibContractLast.matmulLast_zero_apply 256 1024 2048 _ none (truncf .bf16 q bitsLt_bf16_f32) v11 r k

/-- Row `r` of a [256, 2048] array with column `k` inserted is `(r, k)`. -/
theorem lift_row (r : Fin 256) (k : Fin 2048) : reduces_S256x2048_S256.lift (ix1 r) k = ix2 r k :=
  funext fun a => Fin.ext (by match a with | ⟨0, _⟩ => rfl | ⟨1, _⟩ => rfl)

theorem tileWeights_apply (s : FVec Ideal S256x2048 .f32) (r : Fin 256) (k : Fin 2048) :
    tileWeights s (ix2 r k) = weight (fun k' => s (ix2 r k')) k := by
  unfold tileWeights weight
  show Ideal.exp (s (ix2 r k) - broadcastTo S256x2048 (shapeCast S256x1
    (multiReduction .maximumf [1] S256 s 0xFF800000#32 reduces_S256x2048_S256 (.inl rfl) rfl) shapeCasts_S256_S256x1)
    broadcasts_S256x1_S256x2048 (ix2 r k)) = _
  refine congrArg (fun z => Ideal.exp (s (ix2 r k) - z)) ?_
  refine (Cert.Attn.Layout.broadcastTo_a1_ab_apply _ broadcasts_S256x1_S256x2048 r k).trans ?_
  refine (Cert.Attn.Layout.shapeCast_a_a1_apply _ shapeCasts_S256_S256x1 r (0 : Fin 1)).trans ?_
  refine (Ideal.multiReduction_maximumf_single s 0xFF800000#32 reduces_S256x2048_S256 (.inl rfl) rfl (ix1 r)).trans ?_
  unfold rowMax
  show (Finset.univ : Finset (Fin 2048)).fold max negInf (fun k' => s (reduces_S256x2048_S256.lift (ix1 r) k')) = _
  refine congrArg (fun g => (Finset.univ : Finset (Fin 2048)).fold max negInf g) (funext fun k' => ?_)
  exact congrArg s (lift_row r k')

theorem tileProbs_apply (w : FVec Ideal S256x2048 .f32) (r : Fin 256) (k : Fin 2048) :
    tileProbs w (ix2 r k) = Ideal.div (w (ix2 r k)) (∑ k' : Fin 2048, w (ix2 r k')) := by
  unfold tileProbs
  show Ideal.div (w (ix2 r k)) (broadcastTo S256x2048 (shapeCast S256x1
    (multiReduction .add [1] S256 w 0x00000000#32 reduces_S256x2048_S256 (.inl rfl) rfl) shapeCasts_S256_S256x1)
    broadcasts_S256x1_S256x2048 (ix2 r k)) = _
  refine congrArg (Ideal.div (w (ix2 r k))) ?_
  refine (Cert.Attn.Layout.broadcastTo_a1_ab_apply _ broadcasts_S256x1_S256x2048 r k).trans ?_
  refine (Cert.Attn.Layout.shapeCast_a_a1_apply _ shapeCasts_S256_S256x1 r (0 : Fin 1)).trans ?_
  refine (Ideal.multiReduction_add_single w 0x00000000#32 reduces_S256x2048_S256 (.inl rfl) rfl (ix1 r)).trans ?_
  show ∑ k' : Fin 2048, w (reduces_S256x2048_S256.lift (ix1 r) k') = _
  refine Finset.sum_congr rfl fun k' _ => ?_
  exact congrArg w (lift_row r k')

theorem tileOut_apply (p : FVec Ideal S256x2048 .f32) (v25 : FVec Ideal S2048x1024 .bf16) (e : Fin 1024) (r : Fin 256) :
    tileOut p v25 (ix3 (0 : Fin 1) e r) = ∑ k : Fin 2048, p (ix2 r k) * v25 (ix2 k e) := by
  unfold tileOut
  refine (shapeCast_ab_1ab_apply _ shapeCasts_S1024x256_S1x1024x256 (0 : Fin 1) e r).trans ?_
  refine (transpose_ix2_apply _ transposes_S256x1024_p1_0_S1024x256 e r).trans ?_
  rw [dotO_eq]
  exact Cert.LibHR.plainMatmul_zero_apply (φ₁ := .bf16) (φ₂ := .bf16) 256 2048 1024 _ (truncf .bf16 p bitsLt_bf16_f32) v25 r e

/-! ## The stored block at an entry -/

/-- THE STORED BLOCK at `(0, e, r)`: the attention output of query row `r` at feature `e`. -/
theorem stored_apply (v6 : Vec Ideal S256x1024 .bf16) (v7 : Vec Ideal S1024x1024 .bf16) (v11 v25 : Vec Ideal S2048x1024 .bf16)
    (e : Fin 1024) (r : Fin 256) :
    k0_pay5 (F := Ideal) v6 v7 v11 v25 (ix3 (0 : Fin 1) e r)
      = attend (fun e' => ∑ d : Fin 1024, v6 (ix2 r d) * v7 (ix2 d e')) (fun k e' => v11 (ix2 k e'))
          (fun k e' => v25 (ix2 k e')) e := by
  rw [stored_eq, tileOut_apply]
  unfold attend
  have hw : ∀ k' : Fin 2048, tileWeights (tileScores (tileQ v6 v7) v11) (ix2 r k')
      = weight (score (fun e' => ∑ d : Fin 1024, v6 (ix2 r d) * v7 (ix2 d e')) (fun k e' => v11 (ix2 k e'))) k' := fun k' => by
    rw [tileWeights_apply]
    refine congrArg (fun s => weight s k') (funext fun k'' => ?_)
    rw [tileScores_apply]
    exact congrArg (fun q => score q (fun k e' => v11 (ix2 k e')) k'') (funext fun e' => tileQ_apply v6 v7 r e')
  refine Finset.sum_congr rfl fun k _ => ?_
  refine congrArg (· * v25 (ix2 k e)) ?_
  rw [tileProbs_apply, hw k]
  unfold prob
  exact congrArg (Ideal.div _) (Finset.sum_congr rfl fun k' _ => hw k')

end Cert.KernelIdeal.Tile

end
-- ==== Proof.KernelAttention.lean ====
/-
  The kernel's result array, after its run, IS the attention function of the argument arrays (on the extended reals).

  Point `t` of the grid is query tile `t % 8` of batch `t / 8`. Its input block is batch `t / 8` of `x`; its three
  weight blocks are the whole weight arrays, which the host has transposed (a change of float format is the
  identity); its output block is the 1024 × 256 block of columns `256 · (t % 8) …` of batch `t / 8` of the result.
  What the point stores there (CarriedBuffers, QueryTileAtIndex, ProjectionsAtIndex) is, entry `(0, e, r)`, the
  attention output of row `256 · (t % 8) + r` of the batch at feature `e` — the value of `attention` at the entry of
  the result array this block entry lands on. The 32 blocks tile the result array, so the array is `attention`
  everywhere.
-/
import proofs.«178958_j61272003445142_2_alg».proof.Proof.CarriedBuffers
import proofs.«178958_j61272003445142_2_alg».proof.Proof.ProjectionsAtIndex
import proofs.«178958_j61272003445142_2_alg».proof.Proof.QueryTileAtIndex
import proofs.«178958_j61272003445142_2_alg».proof.Proof.AttentionSpec
import proofs.«178958_j61272003445142_2_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.AttnValue

open Cert.KernelIdeal Cert.KernelIdeal.Gen Cert.KernelIdeal.Stores Cert.KernelIdeal.Carried
open Idealize.ShloMosaic Idealize.ShloMosaic.TcCoe Idealize.SL.Sem Idealize.ShloMosaic.ValueIdx Idealize.ShloMosaic.StableHlo
open Idealize.ShloMosaic.Pipeline (Dat)
open Cert.Attn

variable (m : (ℓ : Loc nD τ sig) → Buf (Elt Ideal) ℓ) (ρ : Dev nD → PrngReg)

/-! ## The printed index maps, decided over the grid -/

theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = t.val % 8
    ∧ (grid0.coords t (1 : Fin 2)).val = t.val % 8 :=
  (by decide +kernel : ∀ t : Fin grid0.N, _)

/-- The batch of point `t`. -/
def batchOf (t : Fin cfg0.N) : Fin 4 :=
  ⟨t.val / 8, by have h := t.isLt; have hN : cfg0.N = 32 := N_0; omega⟩

/-- The row of `x` (within its batch) that row `r` of point `t`'s query tile is. -/
def rowOf (t : Fin cfg0.N) (r : Fin 256) : Fin 2048 :=
  ⟨256 * (t.val % 8) + r.val, by have h := r.isLt; omega⟩

/-! ## The arrays the host writes before the region: the transposed weights -/

theorem wq_host (c : Dev nD) : (V m c main_v1 : S1024x1024.Idx → EReal)
    = transpose S1024x1024 [1, 0] (truncf (F := Ideal) .bf16 (m ((c : Thread nD τ).loc main_arg1)) bitsLt_bf16_f32) transposes_S1024x1024_S1024x1024_1_0 := by
  dsimp only [Gen.V, Gen.hostOps0]; after_results

theorem wk_host (c : Dev nD) : (V m c main_v3 : S1024x1024.Idx → EReal)
    = transpose S1024x1024 [1, 0] (truncf (F := Ideal) .bf16 (m ((c : Thread nD τ).loc main_arg2)) bitsLt_bf16_f32) transposes_S1024x1024_S1024x1024_1_0 := by
  dsimp only [Gen.V, Gen.hostOps0]; after_results

theorem wv_host (c : Dev nD) : (V m c main_v5 : S1024x1024.Idx → EReal)
    = transpose S1024x1024 [1, 0] (truncf (F := Ideal) .bf16 (m ((c : Thread nD τ).loc main_arg3)) bitsLt_bf16_f32) transposes_S1024x1024_S1024x1024_1_0 := by
  dsimp only [Gen.V, Gen.hostOps0]; after_results

/-- A transposed weight array at `(d, e)` is the weight at `(e, d)`. -/
theorem transposed_apply (w : S1024x1024.Idx → EReal) (d e : Fin 1024) :
    transpose S1024x1024 [1, 0] (truncf (F := Ideal) .bf16 w bitsLt_bf16_f32) transposes_S1024x1024_S1024x1024_1_0 (ix2 d e)
      = w (ix2 e d) :=
  transpose_ix2_apply _ transposes_S1024x1024_S1024x1024_1_0 d e

/-! ## The windows' blocks at an entry -/

/-- Point `t`'s block of `x` is batch `t / 8`: entry `(0, k, d)` of the block is entry `(t / 8, k, d)` of `x`. -/
theorem xblock_apply (c : Dev nD) (t : Fin cfg0.N) (k : Fin 2048) (d : Fin 1024) :
    iblk m c 0 t (ix3 (0 : Fin 1) k d) = (m ((c : Thread nD τ).loc main_arg0)) (ix3 (batchOf t) k d) := by
  show V m c main_arg0 (((cfg0.win 0).blk t).view.emb (ix3 (0 : Fin 1) k d)) = _
  obtain ⟨e0, e1, e2, -⟩ := idx_facts t
  have hemb : ((cfg0.win 0).blk t).view.emb (ix3 (0 : Fin 1) k d) = ix3 (batchOf t) k d := funext fun a => Fin.ext (by
    match a with
    | ⟨0, _⟩ => show win0_0.index t (0 : Fin 3) * 1 + 1 * 0 = t.val / 8; omega
    | ⟨1, _⟩ => show win0_0.index t (1 : Fin 3) * 2048 + 1 * k.val = k.val; omega
    | ⟨2, _⟩ => show win0_0.index t (2 : Fin 3) * 1024 + 1 * d.val = d.val; omega)
  refine (congrArg (V m c main_arg0) hemb).trans ?_
  exact congrFun (V_main_arg0 m c) _

/-- The weight windows' blocks are the whole transposed weight arrays: entry `(d, e)` is the weight at `(e, d)`. -/
theorem wqblock_apply (c : Dev nD) (t : Fin cfg0.N) (d e : Fin 1024) :
    iblk m c 1 t (ix2 d e) = (m ((c : Thread nD τ).loc main_arg1)) (ix2 e d) := by
  show V m c main_v1 (((cfg0.win 1).blk t).view.emb (ix2 d e)) = _
  obtain ⟨-, -, -, e0, e1, -⟩ := idx_facts t
  have hemb : ((cfg0.win 1).blk t).view.emb (ix2 d e) = ix2 d e := funext fun a => Fin.ext (by
    match a with
    | ⟨0, _⟩ => show win0_1.index t (0 : Fin 2) * 1024 + 1 * d.val = d.val; omega
    | ⟨1, _⟩ => show win0_1.index t (1 : Fin 2) * 1024 + 1 * e.val = e.val; omega)
  refine (congrArg (V m c main_v1) hemb).trans ?_
  exact (congrFun (wq_host m c) (ix2 d e)).trans (transposed_apply _ d e)

theorem wkblock_apply (c : Dev nD) (t : Fin cfg0.N) (d e : Fin 1024) :
    iblk m c 2 t (ix2 d e) = (m ((c : Thread nD τ).loc main_arg2)) (ix2 e d) := by
  show V m c main_v3 (((cfg0.win 2).blk t).view.emb (ix2 d e)) = _
  obtain ⟨-, -, -, -, -, e0, e1, -⟩ := idx_facts t
  have hemb : ((cfg0.win 2).blk t).view.emb (ix2 d e) = ix2 d e := funext fun a => Fin.ext (by
    match a with
    | ⟨0, _⟩ => show win0_2.index t (0 : Fin 2) * 1024 + 1 * d.val = d.val; omega
    | ⟨1, _⟩ => show win0_2.index t (1 : Fin 2) * 1024 + 1 * e.val = e.val; omega)
  refine (congrArg (V m c main_v3) hemb).trans ?_
  exact (congrFun (wk_host m c) (ix2 d e)).trans (transposed_apply _ d e)

theorem wvblock_apply (c : Dev nD) (t : Fin cfg0.N) (d e : Fin 1024) :
    iblk m c 3 t (ix2 d e) = (m ((c : Thread nD τ).loc main_arg3)) (ix2 e d) := by
  show V m c main_v5 (((cfg0.win 3).blk t).view.emb (ix2 d e)) = _
  obtain ⟨-, -, -, -, -, -, -, e0, e1, -⟩ := idx_facts t
  have hemb : ((cfg0.win 3).blk t).view.emb (ix2 d e) = ix2 d e := funext fun a => Fin.ext (by
    match a with
    | ⟨0, _⟩ => show win0_3.index t (0 : Fin 2) * 1024 + 1 * d.val = d.val; omega
    | ⟨1, _⟩ => show win0_3.index t (1 : Fin 2) * 1024 + 1 * e.val = e.val; omega)
  refine (congrArg (V m c main_v5) hemb).trans ?_
  exact (congrFun (wv_host m c) (ix2 d e)).trans (transposed_apply _ d e)

/-! ## The carried buffers and the tile's rows at an entry -/

/-- The keys of the batch of point `t`, entry `(k, e)`: row `k` of the batch through the second weight matrix. -/
theorem keysOf_apply (c : Dev nD) (t : Fin cfg0.N) (k : Fin 2048) (e : Fin 1024) :
    keysOf m c t (ix2 k e) = lin (xRow (m ((c : Thread nD τ).loc main_arg0)) (batchOf t) k) (wMat (m ((c : Thread nD τ).loc main_arg2))) e := by
  unfold keysOf
  refine (Payload.keysStored_apply (iblk m c 0 t) (iblk m c 2 t) k e).trans ?_
  show _ = ∑ d : Fin 1024, xRow (m ((c : Thread nD τ).loc main_arg0)) (batchOf t) k d * wMat (m ((c : Thread nD τ).loc main_arg2)) e d
  refine Finset.sum_congr rfl fun d _ => ?_
  rw [xblock_apply m c t k d, wkblock_apply m c t d e]
  rfl

/-- The values of the batch of point `t`, entry `(k, e)`: row `k` of the batch through the third weight matrix. -/
theorem valuesOf_apply (c : Dev nD) (t : Fin cfg0.N) (k : Fin 2048) (e : Fin 1024) :
    valuesOf m c t (ix2 k e) = lin (xRow (m ((c : Thread nD τ).loc main_arg0)) (batchOf t) k) (wMat (m ((c : Thread nD τ).loc main_arg3))) e := by
  unfold valuesOf
  refine (Payload.valuesStored_apply (iblk m c 0 t) (iblk m c 3 t) k e).trans ?_
  show _ = ∑ d : Fin 1024, xRow (m ((c : Thread nD τ).loc main_arg0)) (batchOf t) k d * wMat (m ((c : Thread nD τ).loc main_arg3)) e d
  refine Finset.sum_congr rfl fun d _ => ?_
  rw [xblock_apply m c t k d, wvblock_apply m c t d e]
  rfl

/-- The rows kept of the batch of point `t`, entry `(k, d)`. -/
theorem rowsOf_apply (c : Dev nD) (t : Fin cfg0.N) (k : Fin 2048) (d : Fin 1024) :
    rowsOf m c t (ix2 k d) = (m ((c : Thread nD τ).loc main_arg0)) (ix3 (batchOf t) k d) := by
  unfold rowsOf
  exact (Payload.xStored_apply (iblk m c 0 t) k d).trans (xblock_apply m c t k d)

/-- The query tile's row `r` is row `256 · (tile index) + r` of the buffer it is read from. -/
theorem tileRows_apply (i : grid0.Coords) (Y : Vec Ideal S2048x1024 .bf16) (r : Fin 256) (d : Fin 1024) (row : Fin 2048)
    (hrow : row.val = 256 * (i 1).val + r.val) : tileRows i Y (ix2 r d) = Y (ix2 row d) := by
  show Y ((Rect.unit (s := S2048x1024) (k0_off1 i) S256x1024.size (k0_off1_inb i)).idx (ix2 r d)) = _
  refine congrArg Y (funext fun a => Fin.ext ?_)
  have ho := k0_off1_eq i
  match a with
  | ⟨0, _⟩ =>
    show k0_off1 i 0 + 1 * r.val = row.val
    rw [ho, hrow]
    show 256 * (i 1).val + 1 * r.val = _
    omega
  | ⟨1, _⟩ =>
    show k0_off1 i 1 + 1 * d.val = d.val
    rw [ho]
    show 0 + 1 * d.val = d.val
    omega

/-! ## What a point stores, at an entry -/

/-- THE BLOCK POINT `t` STORES, entry `(0, e, r)`: the attention function at batch `t / 8`, feature `e`, row
    `256 · (t % 8) + r`. -/
theorem block_entry (c : Dev nD) (t : Fin cfg0.N) (e : Fin 1024) (r : Fin 256) :
    k0_pay5 (F := Ideal) (tileRows (grid0.coords t) (rowsOf m c (batchStart t.val t.isLt))) (iblk m c 1 t)
        (keysOf m c (batchStart t.val t.isLt)) (valuesOf m c (batchStart t.val t.isLt)) (ix3 (0 : Fin 1) e r)
      = attention (m ((c : Thread nD τ).loc main_arg0)) (m ((c : Thread nD τ).loc main_arg1)) (m ((c : Thread nD τ).loc main_arg2)) (m ((c : Thread nD τ).loc main_arg3)) (batchOf t) e (rowOf t r) := by
  refine (Tile.stored_apply (tileRows (grid0.coords t) (rowsOf m c (batchStart t.val t.isLt))) (iblk m c 1 t)
    (keysOf m c (batchStart t.val t.isLt)) (valuesOf m c (batchStart t.val t.isLt)) e r).trans ?_
  have hb : batchOf (batchStart t.val t.isLt) = batchOf t := Fin.ext (by show 8 * (t.val / 8) / 8 = t.val / 8; omega)
  obtain ⟨-, -, -, -, -, -, -, -, -, -, -, -, hg⟩ := idx_facts t
  have hrow : (rowOf t r).val = 256 * (grid0.coords t 1).val + r.val := by
    show 256 * (t.val % 8) + r.val = _
    rw [hg]
  have hq : (fun e' => ∑ d : Fin 1024, tileRows (grid0.coords t) (rowsOf m c (batchStart t.val t.isLt)) (ix2 r d) * iblk m c 1 t (ix2 d e'))
      = lin (xRow (m ((c : Thread nD τ).loc main_arg0)) (batchOf t) (rowOf t r)) (wMat (m ((c : Thread nD τ).loc main_arg1))) := funext fun e' => by
    show _ = ∑ d : Fin 1024, xRow (m ((c : Thread nD τ).loc main_arg0)) (batchOf t) (rowOf t r) d * wMat (m ((c : Thread nD τ).loc main_arg1)) e' d
    refine Finset.sum_congr rfl fun d _ => ?_
    rw [tileRows_apply (grid0.coords t) (rowsOf m c (batchStart t.val t.isLt)) r d (rowOf t r) hrow, rowsOf_apply m c (batchStart t.val t.isLt) (rowOf t r) d,
      wqblock_apply m c t d e', hb]
    rfl
  have hk : (fun k e' => keysOf m c (batchStart t.val t.isLt) (ix2 k e')) = fun k => lin (xRow (m ((c : Thread nD τ).loc main_arg0)) (batchOf t) k) (wMat (m ((c : Thread nD τ).loc main_arg2))) :=
    funext fun k => funext fun e' => by rw [keysOf_apply m c (batchStart t.val t.isLt) k e', hb]
  have hv : (fun k e' => valuesOf m c (batchStart t.val t.isLt) (ix2 k e')) = fun k => lin (xRow (m ((c : Thread nD τ).loc main_arg0)) (batchOf t) k) (wMat (m ((c : Thread nD τ).loc main_arg3))) :=
    funext fun k => funext fun e' => by rw [valuesOf_apply m c (batchStart t.val t.isLt) k e', hb]
  rw [hq, hk, hv]
  rfl

/-! ## The result array -/

/-- The result array the claim is about: the attention function of the argument arrays, entry by entry. -/
def result (c : Dev nD) : Buf (Elt Ideal) ((c : Thread nD τ).loc main_v6) :=
  fun (j : S4x1024x2048.Idx) => attention (m ((c : Thread nD τ).loc main_arg0)) (m ((c : Thread nD τ).loc main_arg1)) (m ((c : Thread nD τ).loc main_arg2)) (m ((c : Thread nD τ).loc main_arg3)) (j 0) (j 1) (j 2)

/-- WHAT POINT `t` WRITES BACK is block `t` of that array. -/
theorem flushed_eq (c : Dev nD) (t : Fin cfg0.N) :
    (dats m 0 c).flushed 4 t = ((cfg0.win 4).blk t).view.read (Elt Ideal) (result m c) := by
  rw [Value.flushed4 m c t, out_at m c t]
  refine funext fun (j : S1x1024x256.Idx) => ?_
  obtain ⟨u, e, r, rfl⟩ : ∃ (u : Fin 1) (e : Fin 1024) (r : Fin 256), j = ix3 u e r := ⟨j 0, j 1, j 2, eq_ix3 j⟩
  obtain rfl : u = 0 := Subsingleton.elim _ _
  show k0_pay5 (F := Ideal) (tileRows (grid0.coords t) (rowsOf m c (batchStart t.val t.isLt))) (iblk m c 1 t)
        (keysOf m c (batchStart t.val t.isLt)) (valuesOf m c (batchStart t.val t.isLt)) (ix3 (0 : Fin 1) e r)
      = result m c (((cfg0.win 4).blk t).view.emb (ix3 (0 : Fin 1) e r))
  obtain ⟨-, -, -, -, -, -, -, -, -, e0, e1, e2, -⟩ := idx_facts t
  have hemb : ((cfg0.win 4).blk t).view.emb (ix3 (0 : Fin 1) e r) = ix3 (batchOf t) e (rowOf t r) := funext fun a => Fin.ext (by
    match a with
    | ⟨0, _⟩ => show win0_4.index t (0 : Fin 3) * 1 + 1 * 0 = t.val / 8; omega
    | ⟨1, _⟩ => show win0_4.index t (1 : Fin 3) * 1024 + 1 * e.val = e.val; omega
    | ⟨2, _⟩ => show win0_4.index t (2 : Fin 3) * 256 + 1 * r.val = 256 * (t.val % 8) + r.val; omega)
  rw [hemb]
  exact block_entry m c t e r

/-- An index of the result array is in point `t`'s block iff each coordinate is in the block's range on its axis. -/
theorem mem_blk (t : Fin cfg0.N) (i : S4x1024x2048.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v6).slice (win0_4.rect t)).set ↔ _
  rw [View.set_slice_whole, Rect.mem_set_unit]
  exact Iff.rfl

/-- Every entry of the result array is in some point's block: entry `(b, e, s)` in that of tile `s / 256` of batch `b`. -/
theorem cover (i : S4x1024x2048.Idx) :
    ∃ t : Fin cfg0.N, (cfg0.win 4).flush t = true ∧ i ∈ ((cfg0.win 4).blk t).view.set := by
  have h0 : (i 0).val < 4 := (i 0).isLt
  have h1 : (i 1).val < 1024 := (i 1).isLt
  have h2 : (i 2).val < 2048 := (i 2).isLt
  have hN : cfg0.N = 32 := N_0
  obtain ⟨t, ht⟩ : ∃ t : Fin cfg0.N, t.val = 8 * (i 0).val + (i 2).val / 256 := ⟨⟨8 * (i 0).val + (i 2).val / 256, by omega⟩, rfl⟩
  refine ⟨t, flush0_4 t, ?_⟩
  rw [mem_blk]
  obtain ⟨-, -, -, -, -, -, -, -, -, e0, e1, e2, -⟩ := idx_facts t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 256 ≤ (i 2).val ∧ (i 2).val < win0_4.index t (2 : Fin 3) * 256 + 256
    omega

/-- THE RESULT ARRAY after the run is the attention function of the argument arrays. -/
theorem final (c : Dev nD) : (dats m 0 c).arrAt 4 cfg0.N = result m c :=
  (dats m 0 c).arrAt_eq_of_cover 4 (result m c) (fun t _ => flushed_eq m c t) cover

/-- The run, read: the result array at the attention function, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.ReferenceAttention.lean ====
/-
  The reference program's result, read one stage at a time on the extended reals, IS the attention function of
  AttentionSpec: entry `(b, e, s)` of its result is `attention x wq wk wv b e s`.

  The stages: three linear layers (each entry a sum over the 1024 input features), the scores (a sum over the 1024
  projected features, divided by √1024 — which is the product with 2⁻⁵), the row maximum (a fold of `max` from -∞,
  then one more `max` with -∞, the identity), the exponentials of the differences, their row sum (from a zero
  initial value), the quotient, the product with the values (a sum over the 2048 keys) and the final exchange of
  the last two axes.
-/
import proofs.«178958_j61272003445142_2_alg».proof.Proof.Gen.ReferenceIdeal.Read
import proofs.«178958_j61272003445142_2_alg».proof.Proof.AttentionSpec
import Idealize.ShloMosaic.Lib.ValueIdx
import Idealize.ShloMosaic.PureOps.Ideal.Laws
import Idealize.ShloMosaic.PureOps.Reduce

noncomputable section

open scoped BigOperators

namespace Cert.ReferenceIdeal.AttnRead

open Cert.ReferenceIdeal Cert.ReferenceIdeal.Gen Cert.ReferenceIdeal.Read Idealize.ShloMosaic Idealize.ShloMosaic.ValueIdx Cert.Attn

/-- The input's contents and a weight matrix's contents, on the extended reals. -/
abbrev XTy := (⟨S4x2048x1024, .f32⟩ : BufTy).Contents (Elt Ideal)
abbrev WTy := (⟨S1024x1024, .f32⟩ : BufTy).Contents (Elt Ideal)

/-- The first linear layer (the queries) at `(b, s, e)`. -/
theorem queries_apply (x : XTy) (w : WTy) (b : Fin 4) (s : Fin 2048) (e : Fin 1024) :
    val_main_v0 (F := Ideal) x w (ix3 b s e) = lin (xRow x b s) (wMat w) e := by
  rw [val_main_v0_apply]
  show _ = ∑ d : Fin 1024, xRow x b s d * wMat w e d
  refine Finset.sum_congr rfl fun d _ => ?_
  rw [show lidx_main_v0 (ix3 b s e) d = ix3 b s d from funext fun a => Fin.ext (by match a with | ⟨0, _⟩ => rfl | ⟨1, _⟩ => rfl | ⟨2, _⟩ => rfl),
    show ridx_main_v0 (ix3 b s e) d = ix2 e d from funext fun a => Fin.ext (by match a with | ⟨0, _⟩ => rfl | ⟨1, _⟩ => rfl)]
  rfl

/-- The second linear layer (the keys) at `(b, s, e)`. -/
theorem keys_apply (x : XTy) (w : WTy) (b : Fin 4) (s : Fin 2048) (e : Fin 1024) :
    val_main_v1 (F := Ideal) x w (ix3 b s e) = lin (xRow x b s) (wMat w) e := by
  rw [val_main_v1_apply]
  show _ = ∑ d : Fin 1024, xRow x b s d * wMat w e d
  refine Finset.sum_congr rfl fun d _ => ?_
  rw [show lidx_main_v1 (ix3 b s e) d = ix3 b s d from funext fun a => Fin.ext (by match a with | ⟨0, _⟩ => rfl | ⟨1, _⟩ => rfl | ⟨2, _⟩ => rfl),
    show ridx_main_v1 (ix3 b s e) d = ix2 e d from funext fun a => Fin.ext (by match a with | ⟨0, _⟩ => rfl | ⟨1, _⟩ => rfl)]
  rfl

/-- The third linear layer (the values) at `(b, s, e)`. -/
theorem values_apply (x : XTy) (w : WTy) (b : Fin 4) (s : Fin 2048) (e : Fin 1024) :
    val_main_v2 (F := Ideal) x w (ix3 b s e) = lin (xRow x b s) (wMat w) e := by
  rw [val_main_v2_apply]
  show _ = ∑ d : Fin 1024, xRow x b s d * wMat w e d
  refine Finset.sum_congr rfl fun d _ => ?_
  rw [show lidx_main_v2 (ix3 b s e) d = ix3 b s d from funext fun a => Fin.ext (by match a with | ⟨0, _⟩ => rfl | ⟨1, _⟩ => rfl | ⟨2, _⟩ => rfl),
    show ridx_main_v2 (ix3 b s e) d = ix2 e d from funext fun a => Fin.ext (by match a with | ⟨0, _⟩ => rfl | ⟨1, _⟩ => rfl)]
  rfl

/-- The query row and the key rows of batch `b`. -/
abbrev qRow (x : XTy) (wq : WTy) (b : Fin 4) (q : Fin 2048) : Fin 1024 → EReal := lin (xRow x b q) (wMat wq)
abbrev kRows (x : XTy) (wk : WTy) (b : Fin 4) : Fin 2048 → Fin 1024 → EReal := fun k => lin (xRow x b k) (wMat wk)

/-- The scaled scores at `(b, q, k)`: the quotient by √1024 is the product with 2⁻⁵. -/
theorem scores_apply (x : XTy) (wq wk : WTy) (b : Fin 4) (q k : Fin 2048) :
    val_main_v6 (F := Ideal) x wq wk (ix3 b q k) = score (qRow x wq b q) (kRows x wk b) k := by
  rw [val_main_v6_apply, val_main_v3_apply, val_main_v5_apply, val_main_v4_apply, val_main_cst_apply]
  show Ideal.div _ (Ideal.sqrt (Ideal.ofBits .f32 0x44800000#32)) = _
  rw [div_sqrt_1024]
  show _ = (∑ e : Fin 1024, qRow x wq b q e * kRows x wk b k e) * scale
  refine congrArg (· * scale) (Finset.sum_congr rfl fun e _ => ?_)
  rw [show lidx_main_v3 (ix3 b q k) e = ix3 b q e from funext fun a => Fin.ext (by match a with | ⟨0, _⟩ => rfl | ⟨1, _⟩ => rfl | ⟨2, _⟩ => rfl),
    show ridx_main_v3 (ix3 b q k) e = ix3 b k e from funext fun a => Fin.ext (by match a with | ⟨0, _⟩ => rfl | ⟨1, _⟩ => rfl | ⟨2, _⟩ => rfl),
    queries_apply, keys_apply]

/-- The reduced axis of the scores is the keys' axis. -/
theorem scoresReduce : S4x2048x2048.Reduces [2] S4x2048 := by decide

/-- The scores' row `(b, q)` with key `k` inserted is `(b, q, k)`. -/
theorem lift_row (b : Fin 4) (q k : Fin 2048) : scoresReduce.lift (ix2 b q) k = ix3 b q k :=
  funext fun a => Fin.ext (by match a with | ⟨0, _⟩ => rfl | ⟨1, _⟩ => rfl | ⟨2, _⟩ => rfl)

/-- The row maximum at `(b, q)`: the fold of `max` from -∞ over the keys; the second `max` with -∞ changes nothing. -/
theorem rowMax_apply (x : XTy) (wq wk : WTy) (b : Fin 4) (q : Fin 2048) :
    val_main_v9 (F := Ideal) x wq wk (ix2 b q) = rowMax (score (qRow x wq b q) (kRows x wk b)) := by
  rw [val_main_v9_apply, val_main_v8_apply, val_main_cst_1_apply]
  show max negInf (val_main_v7 (F := Ideal) x wq wk (ix2 b q)) = _
  rw [max_negInf]
  unfold val_main_v7
  have hs : ∀ k : Fin 2048, val_main_v6 (F := Ideal) x wq wk (ix3 b q k) = score (qRow x wq b q) (kRows x wk b) k :=
    fun k => scores_apply x wq wk b q k
  generalize val_main_v6 (F := Ideal) x wq wk = y at hs ⊢
  refine (Host.reduce_eq_fold_single (FloatOps.maximumf (F := Ideal) (φ := .f32)) y _
    reducesTo_S4x2048x2048_S4x2048_d2 scoresReduce h_S_ (ix2 b q)).trans ?_
  show (Finset.univ : Finset (Fin 2048)).fold max negInf (fun k => y (scoresReduce.lift (ix2 b q) k)) = _
  unfold rowMax
  refine congrArg (fun g => (Finset.univ : Finset (Fin 2048)).fold max negInf g) (funext fun k => ?_)
  exact (congrArg y (lift_row b q k)).trans (hs k)

/-- The softmax weights at `(b, q, k)`. -/
theorem weights_apply (x : XTy) (wq wk : WTy) (b : Fin 4) (q k : Fin 2048) :
    val_main_v13 (F := Ideal) x wq wk (ix3 b q k) = weight (score (qRow x wq b q) (kRows x wk b)) k := by
  rw [val_main_v13_apply, val_main_v12_apply, val_main_v11_apply, val_main_v10_apply]
  rw [show idx_main_v10 (idx_main_v11 (ix3 b q k)) = ix2 b q from funext fun a => Fin.ext (by match a with | ⟨0, _⟩ => rfl | ⟨1, _⟩ => rfl)]
  rw [rowMax_apply, scores_apply]
  rfl

/-- The softmax probabilities at `(b, q, k)`: the row sum starts from the zero word. -/
theorem probs_apply (x : XTy) (wq wk : WTy) (b : Fin 4) (q k : Fin 2048) :
    val_main_v17 (F := Ideal) x wq wk (ix3 b q k) = prob (score (qRow x wq b q) (kRows x wk b)) k := by
  rw [val_main_v17_apply, val_main_v16_apply, val_main_v15_apply]
  rw [show idx_main_v15 (idx_main_v16 (ix3 b q k)) = ix2 b q from funext fun a => Fin.ext (by match a with | ⟨0, _⟩ => rfl | ⟨1, _⟩ => rfl)]
  rw [val_main_v14_apply, val_main_cst_2_apply]
  show Ideal.div _ (Ideal.ofBits .f32 0x00000000#32 + _) = _
  rw [zero_word_add, weights_apply]
  unfold prob
  refine congrArg (Ideal.div _) (Finset.sum_congr rfl fun k' _ => ?_)
  rw [show idx_main_v14 (ix2 b q) k' = ix3 b q k' from funext fun a => Fin.ext (by match a with | ⟨0, _⟩ => rfl | ⟨1, _⟩ => rfl | ⟨2, _⟩ => rfl), weights_apply]

/-- THE REFERENCE'S RESULT at `(b, e, s)` is the attention function there. -/
theorem result_apply (x : XTy) (wq wk wv : WTy) (b : Fin 4) (e : Fin 1024) (s : Fin 2048) :
    val_main_v19 (F := Ideal) x wq wk wv (ix3 b e s) = attention x wq wk wv b e s := by
  rw [val_main_v19_apply, show idx_main_v19 (ix3 b e s) = ix3 b s e from funext fun a => Fin.ext (by match a with | ⟨0, _⟩ => rfl | ⟨1, _⟩ => rfl | ⟨2, _⟩ => rfl), val_main_v18_apply]
  unfold attention attend
  refine Finset.sum_congr rfl fun k _ => ?_
  rw [show lidx_main_v18 (ix3 b s e) k = ix3 b s k from funext fun a => Fin.ext (by match a with | ⟨0, _⟩ => rfl | ⟨1, _⟩ => rfl | ⟨2, _⟩ => rfl),
    show ridx_main_v18 (ix3 b s e) k = ix3 b k e from funext fun a => Fin.ext (by match a with | ⟨0, _⟩ => rfl | ⟨1, _⟩ => rfl | ⟨2, _⟩ => rfl),
    probs_apply, values_apply]

end Cert.ReferenceIdeal.AttnRead

end
-- ==== Proof.lean ====
/-
  Fused self-attention against its plain reference: both compute, on the extended reals, the same function of the
  input `x` (4 batches of 2048 rows of 1024 features) and the three 1024 × 1024 weight matrices —

    result (b, e, s) = ∑ k, softmax_k ((q_s · k_k) · 2⁻⁵) · v_k (e),
    q_s = x (b, s, ·) Wqᵀ,  k_k = x (b, k, ·) Wkᵀ,  v_k = x (b, k, ·) Wvᵀ

  (AttentionSpec's `attention`). The kernel computes a batch's keys and values once, at the batch's first query
  tile, keeps them for the other seven tiles, and writes each tile's 256 output rows transposed; the reference
  computes everything at once and exchanges the last two axes at the end. The roundings to a shorter float format
  are the identity on the extended reals; the kernel's factor 2⁻⁵ is the reference's quotient by √1024; the
  reference's extra maximum with -∞ and its zero initial value of the row sum change nothing. No law is used
  that fails at an infinity, so the precondition is not opened.

  The frames of the two kernel programs are the generated ones; the reference's frame is its generated run with
  the result dropped; the ideal pass rewrote nothing, so the idealization claim is `True`.
-/
import proofs.«178958_j61272003445142_2_alg».proof.Defs
import proofs.«178958_j61272003445142_2_alg».proof.Proof.Gen.Kernel
import proofs.«178958_j61272003445142_2_alg».proof.Proof.Gen.Kernel.Skeleton
import proofs.«178958_j61272003445142_2_alg».proof.Proof.Gen.Kernel.Launch
import proofs.«178958_j61272003445142_2_alg».proof.Proof.Gen.Kernel.Points
import proofs.«178958_j61272003445142_2_alg».proof.Proof.Gen.Kernel.Frame
import proofs.«178958_j61272003445142_2_alg».proof.Proof.Gen.KernelIdeal
import proofs.«178958_j61272003445142_2_alg».proof.Proof.Gen.KernelIdeal.Skeleton
import proofs.«178958_j61272003445142_2_alg».proof.Proof.Gen.KernelIdeal.Launch
import proofs.«178958_j61272003445142_2_alg».proof.Proof.Gen.KernelIdeal.Points
import proofs.«178958_j61272003445142_2_alg».proof.Proof.Gen.KernelIdeal.Frame
import proofs.«178958_j61272003445142_2_alg».proof.Proof.Gen.ReferenceIdeal
import proofs.«178958_j61272003445142_2_alg».proof.Proof.Gen.Pre_finite_inputs
import proofs.«178958_j61272003445142_2_alg».proof.Proof.Gen.KernelIdeal.Value
import proofs.«178958_j61272003445142_2_alg».proof.Proof.Gen.ReferenceIdeal.Run
import proofs.«178958_j61272003445142_2_alg».proof.Proof.Gen.ReferenceIdeal.Read
import proofs.«178958_j61272003445142_2_alg».proof.Proof.KernelAttention
import proofs.«178958_j61272003445142_2_alg».proof.Proof.ReferenceAttention
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array ends at the attention function of its argument arrays
    (KernelAttention) and the reference's result at the same function of arguments that agree
    (ReferenceAttention), entry by entry. -/
theorem algebraic : Cert.algebraic_KernelIdeal_ReferenceIdeal := by
  intro m ρ m' ρ' _ hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _ _).trans ?_
  rw [(hagree c).1, (hagree c).2.1, (hagree c).2.2.1, (hagree c).2.2.2]
  refine funext fun (j : Cert.ReferenceIdeal.S4x1024x2048.Idx) => ?_
  obtain ⟨b, e, s, rfl⟩ : ∃ (b : Fin 4) (e : Fin 1024) (s : Fin 2048), j = ix3 b e s := ⟨j 0, j 1, j 2, eq_ix3 j⟩
  exact Cert.ReferenceIdeal.AttnRead.result_apply _ _ _ _ b e s

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
